-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Kernel.lean ====
abbrev S16384x2048 : Shape := ⟨2, ![16384, 2048]⟩
abbrev S16x2048 : Shape := ⟨2, ![16, 2048]⟩
abbrev S1024x2048 : Shape := ⟨2, ![1024, 2048]⟩
abbrev S8x2048 : Shape := ⟨2, ![8, 2048]⟩
abbrev S2048 : Shape := ⟨1, ![2048]⟩
abbrev S1x2048 : Shape := ⟨2, ![1, 2048]⟩
abbrev S_ : Shape := ⟨0, ![]⟩

abbrev nBuf : Space → Nat
  | .hbm => 17
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S16x2048, .f32⟩
  | .hbm, ⟨2, _⟩ => ⟨S16x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S2048, .f32⟩
  | .hbm, ⟨7, _⟩ => ⟨S_, .f32⟩
  | .hbm, ⟨8, _⟩ => ⟨S_, .f32⟩
  | .hbm, ⟨9, _⟩ => ⟨S2048, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_cst_4 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x2048_S8x2048_0_0 : ∀ a, (![0, 0] : Fin 2 → Nat) a + S8x2048.size a ≤ S8x2048.size a
  h_S8x2048 : 0 < S8x2048.numel
  inb_S1024x2048_S1024x2048_0_0 : ∀ a, (![0, 0] : Fin 2 → Nat) a + S1024x2048.size a ≤ S1024x2048.size a
  h_S1024x2048 : 0 < S1024x2048.numel
  reduces_S1024x2048_S2048 : S1024x2048.Reduces [0] S2048
  shapeCasts_S2048_S1x2048 : S2048.ShapeCasts S1x2048
  shapeCasts_S8x2048_S8x2048 : S8x2048.ShapeCasts S8x2048
  shapeCasts_S1x2048_S1x2048 : S1x2048.ShapeCasts S1x2048
  broadcasts_S1x2048_S8x2048 : S1x2048.Broadcasts S8x2048
  reducesTo_S16x2048_S_d0_1 : S16x2048.ReducesTo [0, 1] S_
  h_S_ : 0 < S_.numel
  reducesTo_S16x2048_S2048_d0 : S16x2048.ReducesTo [0] S2048
  reducesTo_S2048_S_d0 : S2048.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S16x2048.size a
  hwx0_1 : ∀ i : grid0.Coords, EltTy.bits .f32 = 32 ∨ (Rect.block (s := S16x2048) S8x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S16x2048.size a
  hwx0_2 : ∀ i : grid0.Coords, EltTy.bits .f32 = 32 ∨ (Rect.block (s := S16x2048) S8x2048.size (cc0_transform_2 i) (hinb0_2 i)).WholeWords (EltTy.packing .f32)

variable [Facts₀]

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S8x2048.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S_ : Shape := ⟨0, ![]⟩
abbrev S2048 : Shape := ⟨1, ![2048]⟩

abbrev nBuf : Space → Nat
  | .hbm => 16
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_v6 : Ref sig .tc := ⟨.hbm, 11, rfl⟩
abbrev main_cst_3 : Ref sig .tc := ⟨.hbm, 12, rfl⟩
abbrev main_v7 : Ref sig .tc := ⟨.hbm, 13, rfl⟩
abbrev main_cst_4 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  reducesTo_S16384x2048_S_d0_1 : S16384x2048.ReducesTo [0, 1] S_
  h_S_ : 0 < S_.numel
  reducesTo_S16384x2048_S2048_d0 : S16384x2048.ReducesTo [0] S2048
  reducesTo_S2048_S_d0 : S2048.ReducesTo [0] S_

variable [Facts₀]

class Facts : Prop extends Facts₀ where

variable [Facts]
-- ==== Proof.Pieces.lean ====
/-
  What each case of the kernel body leaves in the two output blocks, as the body's arithmetic
  applied to the blocks it read: the first point of a core's run stores a zero block and then
  adds the scaled column sums of the input block into it; every later point adds them into what
  the point before left.
-/
import proofs.«134652_j81681688035493_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A later point of a core's run: the sum-of-squares block becomes the body's sum-of-squares
    arithmetic of the input block and of what the block held. -/
theorem sq_later (c : Dev nD) (i : grid0.Coords) (a2 : Memref sig .tc .vmem S1024x2048 .f32) (h2 : a2.IsWhole)
    (a3 : Memref sig .tc .vmem S8x2048 .f32) (h3 : a3.IsWhole) (a4 : Memref sig .tc .vmem S8x2048 .f32) (h4 : a4.IsWhole)
    (hc : ¬cond0_0 i) (x : Vec F S1024x2048 .f32) (xo1 xo2 : Vec F S8x2048 .f32) :
    out0_B_1 c i a2 h2 a3 h3 a4 h4 hc x xo1 xo2 = k0_pay3 x xo1 := by
  unfold out0_B_1
  rw [View.read_writes_eq_canon _ _ _ (cover0_B_1 c i a2 h2 a3 h3 a4 h4 hc x xo1 xo2)]
  unfold kernelRun0_B
  dsimp only
  rw [View.canon_unit_zero hz]
  simp only [View.readAt_eq_ld, h2.read_unread, h3.read_unread, View.ld_unit_zero (S := S1024x2048) hz,
    View.ld_unit_zero (S := S8x2048) hz]

/-- A later point of a core's run: the column-sum block becomes the body's column-sum arithmetic
    of the input block and of what the block held. -/
theorem sum_later (c : Dev nD) (i : grid0.Coords) (a2 : Memref sig .tc .vmem S1024x2048 .f32) (h2 : a2.IsWhole)
    (a3 : Memref sig .tc .vmem S8x2048 .f32) (h3 : a3.IsWhole) (a4 : Memref sig .tc .vmem S8x2048 .f32) (h4 : a4.IsWhole)
    (hc : ¬cond0_0 i) (x : Vec F S1024x2048 .f32) (xo1 xo2 : Vec F S8x2048 .f32) :
    out0_B_2 c i a2 h2 a3 h3 a4 h4 hc x xo1 xo2 = k0_pay4 x xo2 := by
  unfold out0_B_2
  rw [View.read_writes_eq_canon _ _ _ (cover0_B_2 c i a2 h2 a3 h3 a4 h4 hc x xo1 xo2)]
  unfold kernelRun0_B
  dsimp only
  rw [View.canon_unit_zero hz]
  simp only [View.readAt_eq_ld, h2.read_unread, h4.read_unread, View.ld_unit_zero (S := S1024x2048) hz,
    View.ld_unit_zero (S := S8x2048) hz]

/-- The first point of a core's run: the sum-of-squares block is reset to the zero block and the
    same arithmetic is applied to that zero block. -/
theorem sq_first (c : Dev nD) (i : grid0.Coords) (a2 : Memref sig .tc .vmem S1024x2048 .f32) (h2 : a2.IsWhole)
    (a3 : Memref sig .tc .vmem S8x2048 .f32) (h3 : a3.IsWhole) (a4 : Memref sig .tc .vmem S8x2048 .f32) (h4 : a4.IsWhole)
    (hc : cond0_0 i) (x : Vec F S1024x2048 .f32) :
    out0_A_1 c i a2 h2 a3 h3 a4 h4 hc x = k0_pay3 x (k0_pay1 (F := F)) := by
  unfold out0_A_1
  rw [View.read_writes_eq_canon _ _ _ (cover0_A_1 c i a2 h2 a3 h3 a4 h4 hc x)]
  unfold kernelRun0_A
  dsimp only
  sl_unfold_words
  rw [View.canon_cons_unit_zero (S := S8x2048) hz, View.readCov_unit_zero (S := S8x2048) _ hz]
  simp only [View.readAt_eq_ld, h2.read_unread, View.ld_unit_zero (S := S1024x2048) hz]

/-- The first point of a core's run: the column-sum block is reset to the zero block and the
    same arithmetic is applied to that zero block. -/
theorem sum_first (c : Dev nD) (i : grid0.Coords) (a2 : Memref sig .tc .vmem S1024x2048 .f32) (h2 : a2.IsWhole)
    (a3 : Memref sig .tc .vmem S8x2048 .f32) (h3 : a3.IsWhole) (a4 : Memref sig .tc .vmem S8x2048 .f32) (h4 : a4.IsWhole)
    (hc : cond0_0 i) (x : Vec F S1024x2048 .f32) :
    out0_A_2 c i a2 h2 a3 h3 a4 h4 hc x = k0_pay4 x (k0_pay2 (F := F)) := by
  unfold out0_A_2
  rw [View.read_writes_eq_canon _ _ _ (cover0_A_2 c i a2 h2 a3 h3 a4 h4 hc x)]
  unfold kernelRun0_A
  dsimp only
  sl_unfold_words
  rw [View.canon_cons_unit_zero (S := S8x2048) hz, View.readCov_unit_zero (S := S8x2048) _ hz]
  simp only [View.readAt_eq_ld, h2.read_unread, View.ld_unit_zero (S := S1024x2048) hz]

end Cert.KernelIdeal.Pieces

end
-- ==== Proof.Payload.lean ====
/-
  The body's arithmetic read at one entry, over the extended reals: entry (r, d) of the updated
  sum-of-squares block is the old entry plus one eighth of the sum, over the 1024 rows k of the
  input block, of x(k, d)²; the column-sum block likewise with x(k, d) in place of its square.
  The row r of the 8-row block plays no part: all eight rows receive the same addend.
-/
import proofs.«134652_j81681688035493_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Payload

open Cert.KernelIdeal Cert.KernelIdeal.Gen

/-- The factor 1/8 the body scales its column sums by, as the kernel spells it. -/
abbrev eighth : EReal := Ideal.ofBits .f32 0x3E000000#32

/-- The zero the blocks are reset to, as the kernel spells it. -/
abbrev zero32 : EReal := Ideal.ofBits .f32 0x00000000#32

/-- A sum over the 1024 rows of an input block, one column at a time. -/
theorem colsum_apply (v : FVec Ideal S1024x2048 .f32) (hred : S1024x2048.Reduces [0] S2048) (hacc : (0x00000000#32 : BitVec 32) = 0x00000000#32) (d : Fin 2048) :
    multiReduction (F := Ideal) .add [0] S2048 v 0x00000000#32 hred (.inl rfl) hacc (ix1 d)
      = ∑ k : Fin 1024, v (ix2 k d) := by
  refine (Ideal.multiReduction_add_single v 0x00000000#32 hred (.inl rfl) hacc (ix1 d)).trans ?_
  refine Finset.sum_congr rfl fun k _ => congrArg v ?_
  funext a
  match a with
  | ⟨0, _⟩ => rfl
  | ⟨1, _⟩ => rfl

/-- A [2048] row, cast to [1, 2048] and broadcast over the 8 rows of a block, reads the row's entry. -/
theorem spread_apply (w : FVec Ideal S1x2048 .f32) (hc : S1x2048.ShapeCasts S1x2048) (hb : S1x2048.Broadcasts S8x2048) (r : Fin 8) (d : Fin 2048) :
    broadcastTo S8x2048 (shapeCast S1x2048 w hc) hb (ix2 r d)
      = w (ix2 (0 : Fin 1) d) := by
  rw [shapeCast_self]
  exact broadcastTo_1b_ab_apply w _ r d

/-- The sum-of-squares update at entry (r, d). -/
theorem sq_apply (x : FVec Ideal S1024x2048 .f32) (acc : FVec Ideal S8x2048 .f32) (r : Fin 8) (d : Fin 2048) :
    k0_pay3 (F := Ideal) x acc (ix2 r d) = acc (ix2 r d) + (∑ k : Fin 1024, x (ix2 k d) * x (ix2 k d)) * eighth := by
  unfold k0_pay3
  dsimp only
  rw [addf_apply, shapeCast_self, spread_apply, mulf_apply, broadcast_apply, shapeCast_a_1a_apply, colsum_apply]
  rfl

/-- The column-sum update at entry (r, d). -/
theorem sum_apply (x : FVec Ideal S1024x2048 .f32) (acc : FVec Ideal S8x2048 .f32) (r : Fin 8) (d : Fin 2048) :
    k0_pay4 (F := Ideal) x acc (ix2 r d) = acc (ix2 r d) + (∑ k : Fin 1024, x (ix2 k d)) * eighth := by
  unfold k0_pay4
  dsimp only
  rw [addf_apply, shapeCast_self, spread_apply, mulf_apply, broadcast_apply, shapeCast_a_1a_apply, colsum_apply]
  rfl

/-- The reset block is zero at every entry. -/
theorem reset1_apply (y : S8x2048.Idx) : k0_pay1 (F := Ideal) y = zero32 := rfl
theorem reset2_apply (y : S8x2048.Idx) : k0_pay2 (F := Ideal) y = zero32 := rfl

end Cert.KernelIdeal.Payload

end
-- ==== Proof.Running.lean ====
/-
  What the two output blocks hold after each grid point, entry by entry. The sixteen points are
  two runs of eight (one run per core); point n lies in run n / 8 at offset n % 8. After point n
  every entry of column d of the sum-of-squares block is
      0 + Σ_{s ≤ n % 8} (Σ_k x_{8·(n/8)+s}(k, d)²) / 8
  where x_p is the input block of point p, and the column-sum block is the same with x in place
  of x²: the first point of a run resets and adds, each later point adds. By induction on n.
-/
import proofs.«134652_j81681688035493_2_alg».proof.Proof.Pieces
import proofs.«134652_j81681688035493_2_alg».proof.Proof.Payload

noncomputable section

open Idealize.ShloMosaic Idealize.ShloMosaic.TcCoe Idealize.SL.Sem Idealize.ShloMosaic.ValueIdx

namespace Cert.KernelIdeal.Running

open Cert.KernelIdeal Cert.KernelIdeal.Gen Cert.KernelIdeal.Payload

variable (m : (ℓ : Loc nD τ sig) → Buf (Elt Ideal) ℓ)

/-- One point's addend to column d of the sum-of-squares block. -/
def sqAdd (x : FVec Ideal S1024x2048 .f32) (d : Fin 2048) : EReal :=
  (∑ k : Fin 1024, x (ix2 k d) * x (ix2 k d)) * eighth

/-- One point's addend to column d of the column-sum block. -/
def sumAdd (x : FVec Ideal S1024x2048 .f32) (d : Fin 2048) : EReal :=
  (∑ k : Fin 1024, x (ix2 k d)) * eighth

/-- The input block of point n, for every natural n (zero past the grid, where it is never read). -/
def blkAt (c : Dev nD) (n : ℕ) : FVec Ideal S1024x2048 .f32 :=
  if h : n < cfg0.N then iblk m c 0 ⟨n, h⟩ else fun _ => 0

theorem blkAt_of_lt (c : Dev nD) (t : Fin cfg0.N) : blkAt m c t.val = iblk m c 0 t := dif_pos t.isLt

/-- At the first point of a run both blocks are the reset value plus that point's addend. -/
theorem sq_at_first (c : Dev nD) (t : Fin cfg0.N) (h0 : t.val % 8 = 0) (r : Fin 8) (d : Fin 2048) :
    (outsAt0 m c t.val t.isLt).1 (ix2 r d) = zero32 + sqAdd (blkAt m c t.val) d := by
  refine (congrArg (fun p : Vec Ideal S8x2048 .f32 × Vec Ideal S8x2048 .f32 => p.1 (ix2 r d)) (outsAt0_A m c t h0)).trans ?_
  dsimp only
  rw [Pieces.sq_first (F := Ideal) c (grid0.coords t) (ms0_0 t) (hs0_0 t) (ms0_1 t) (hs0_1 t) (ms0_2 t) (hs0_2 t)
    ((hcond0_0 t).mpr h0) (iblk m c 0 t), blkAt_of_lt]
  exact Payload.sq_apply (iblk m c 0 t) k0_pay1 r d

theorem sum_at_first (c : Dev nD) (t : Fin cfg0.N) (h0 : t.val % 8 = 0) (r : Fin 8) (d : Fin 2048) :
    (outsAt0 m c t.val t.isLt).2 (ix2 r d) = zero32 + sumAdd (blkAt m c t.val) d := by
  refine (congrArg (fun p : Vec Ideal S8x2048 .f32 × Vec Ideal S8x2048 .f32 => p.2 (ix2 r d)) (outsAt0_A m c t h0)).trans ?_
  dsimp only
  rw [Pieces.sum_first (F := Ideal) c (grid0.coords t) (ms0_0 t) (hs0_0 t) (ms0_1 t) (hs0_1 t) (ms0_2 t) (hs0_2 t)
    ((hcond0_0 t).mpr h0) (iblk m c 0 t), blkAt_of_lt]
  exact Payload.sum_apply (iblk m c 0 t) k0_pay2 r d

/-- At a later point of a run both blocks are what the point before left plus this point's addend. -/
theorem sq_at_later (c : Dev nD) (t : Fin cfg0.N) (h0 : ¬t.val % 8 = 0) (r : Fin 8) (d : Fin 2048) :
    (outsAt0 m c t.val t.isLt).1 (ix2 r d)
      = (outsAt0 m c (t.val - 1) (Nat.lt_of_le_of_lt (Nat.sub_le _ _) t.isLt)).1 (ix2 r d) + sqAdd (blkAt m c t.val) d := by
  refine (congrArg (fun p : Vec Ideal S8x2048 .f32 × Vec Ideal S8x2048 .f32 => p.1 (ix2 r d)) (outsAt0_B m c t h0)).trans ?_
  dsimp only
  rw [Pieces.sq_later (F := Ideal) c (grid0.coords t) (ms0_0 t) (hs0_0 t) (ms0_1 t) (hs0_1 t) (ms0_2 t) (hs0_2 t)
    (fun h => h0 ((hcond0_0 t).mp h)) (iblk m c 0 t)
    (outsAt0 m c (t.val - 1) (Nat.lt_of_le_of_lt (Nat.sub_le _ _) t.isLt)).1
    (outsAt0 m c (t.val - 1) (Nat.lt_of_le_of_lt (Nat.sub_le _ _) t.isLt)).2, blkAt_of_lt]
  exact Payload.sq_apply (iblk m c 0 t) (outsAt0 m c (t.val - 1) (Nat.lt_of_le_of_lt (Nat.sub_le _ _) t.isLt)).1 r d

theorem sum_at_later (c : Dev nD) (t : Fin cfg0.N) (h0 : ¬t.val % 8 = 0) (r : Fin 8) (d : Fin 2048) :
    (outsAt0 m c t.val t.isLt).2 (ix2 r d)
      = (outsAt0 m c (t.val - 1) (Nat.lt_of_le_of_lt (Nat.sub_le _ _) t.isLt)).2 (ix2 r d) + sumAdd (blkAt m c t.val) d := by
  refine (congrArg (fun p : Vec Ideal S8x2048 .f32 × Vec Ideal S8x2048 .f32 => p.2 (ix2 r d)) (outsAt0_B m c t h0)).trans ?_
  dsimp only
  rw [Pieces.sum_later (F := Ideal) c (grid0.coords t) (ms0_0 t) (hs0_0 t) (ms0_1 t) (hs0_1 t) (ms0_2 t) (hs0_2 t)
    (fun h => h0 ((hcond0_0 t).mp h)) (iblk m c 0 t)
    (outsAt0 m c (t.val - 1) (Nat.lt_of_le_of_lt (Nat.sub_le _ _) t.isLt)).1
    (outsAt0 m c (t.val - 1) (Nat.lt_of_le_of_lt (Nat.sub_le _ _) t.isLt)).2, blkAt_of_lt]
  exact Payload.sum_apply (iblk m c 0 t) (outsAt0 m c (t.val - 1) (Nat.lt_of_le_of_lt (Nat.sub_le _ _) t.isLt)).2 r d

/-- The sum-of-squares block after point n: the reset value plus the addends of the run so far. -/
theorem sq_running (c : Dev nD) : ∀ (n : ℕ) (h : n < cfg0.N) (r : Fin 8) (d : Fin 2048),
    (outsAt0 m c n h).1 (ix2 r d)
      = zero32 + ∑ s ∈ Finset.range (n % 8 + 1), sqAdd (blkAt m c (8 * (n / 8) + s)) d
  | 0, h, r, d => by
    refine (sq_at_first m c ⟨0, h⟩ rfl r d).trans ?_
    simp
  | n + 1, h, r, d => by
    by_cases h0 : (n + 1) % 8 = 0
    · refine (sq_at_first m c ⟨n + 1, h⟩ h0 r d).trans ?_
      have e1 : (n + 1) % 8 + 1 = 1 := by omega
      have e2 : 8 * ((n + 1) / 8) + 0 = n + 1 := by omega
      rw [e1, Finset.sum_range_one, e2]
    · refine (sq_at_later m c ⟨n + 1, h⟩ h0 r d).trans ?_
      show (outsAt0 m c n _).1 (ix2 r d) + sqAdd (blkAt m c (n + 1)) d = _
      have e1 : (n + 1) % 8 + 1 = (n % 8 + 1) + 1 := by omega
      have e2 : (n + 1) / 8 = n / 8 := by omega
      have e3 : 8 * (n / 8) + (n % 8 + 1) = n + 1 := by omega
      rw [e1, e2, Finset.sum_range_succ _ (n % 8 + 1), e3, ← add_assoc, ← sq_running c n (Nat.lt_of_succ_lt h) r d]

/-- The column-sum block after point n, likewise. -/
theorem sum_running (c : Dev nD) : ∀ (n : ℕ) (h : n < cfg0.N) (r : Fin 8) (d : Fin 2048),
    (outsAt0 m c n h).2 (ix2 r d)
      = zero32 + ∑ s ∈ Finset.range (n % 8 + 1), sumAdd (blkAt m c (8 * (n / 8) + s)) d
  | 0, h, r, d => by
    refine (sum_at_first m c ⟨0, h⟩ rfl r d).trans ?_
    simp
  | n + 1, h, r, d => by
    by_cases h0 : (n + 1) % 8 = 0
    · refine (sum_at_first m c ⟨n + 1, h⟩ h0 r d).trans ?_
      have e1 : (n + 1) % 8 + 1 = 1 := by omega
      have e2 : 8 * ((n + 1) / 8) + 0 = n + 1 := by omega
      rw [e1, Finset.sum_range_one, e2]
    · refine (sum_at_later m c ⟨n + 1, h⟩ h0 r d).trans ?_
      show (outsAt0 m c n _).2 (ix2 r d) + sumAdd (blkAt m c (n + 1)) d = _
      have e1 : (n + 1) % 8 + 1 = (n % 8 + 1) + 1 := by omega
      have e2 : (n + 1) / 8 = n / 8 := by omega
      have e3 : 8 * (n / 8) + (n % 8 + 1) = n + 1 := by omega
      rw [e1, e2, Finset.sum_range_succ _ (n % 8 + 1), e3, ← add_assoc, ← sum_running c n (Nat.lt_of_succ_lt h) r d]

end Cert.KernelIdeal.Running

end
-- ==== Proof.Arrays.lean ====
/-
  The two output arrays after the run. Point t writes its blocks back only at the last point of a
  core's run (t % 8 = 7); that block is the 8-row slab t / 8 of the [16, 2048] array, and by then
  every entry of its column d holds the core's total: the reset value plus the eight addends of
  the run. The two slabs tile the array, so entry (r, d) of the sum-of-squares array is the total
  of core r / 8 in column d, and likewise for the column-sum array.
-/
import proofs.«134652_j81681688035493_2_alg».proof.Proof.Running

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Payload Cert.KernelIdeal.Running

variable (m : (ℓ : Loc nD τ sig) → Buf (Elt Ideal) ℓ)

/-- The printed index maps over the grid: point t reads input block t, and writes slab t / 8. -/
theorem idx_facts : ∀ t : Fin cfg0.N, win0_1.index t (0 : Fin 2) = t.val / 8 ∧ win0_1.index t (1 : Fin 2) = 0
    ∧ win0_2.index t (0 : Fin 2) = t.val / 8 ∧ win0_2.index t (1 : Fin 2) = 0
    ∧ win0_0.index t (0 : Fin 2) = t.val ∧ win0_0.index t (1 : Fin 2) = 0 :=
  (by decide +kernel : ∀ t : Fin grid0.N, _)

/-- Core q's total in column d of the sum-of-squares array. -/
def coreSq (c : Dev nD) (q : ℕ) (d : Fin 2048) : EReal :=
  zero32 + ∑ s ∈ Finset.range 8, sqAdd (blkAt m c (8 * q + s)) d

/-- Core q's total in column d of the column-sum array. -/
def coreSum (c : Dev nD) (q : ℕ) (d : Fin 2048) : EReal :=
  zero32 + ∑ s ∈ Finset.range 8, sumAdd (blkAt m c (8 * q + s)) d

/-- The sum-of-squares array: row r holds the totals of core r / 8. -/
def sqArr (c : Dev nD) : S16x2048.Idx → Elt Ideal .f32 := fun y => coreSq m c ((y 0).val / 8) (y 1)

/-- The column-sum array: row r holds the totals of core r / 8. -/
def sumArr (c : Dev nD) : S16x2048.Idx → Elt Ideal .f32 := fun y => coreSum m c ((y 0).val / 8) (y 1)

theorem sqArr_apply (c : Dev nD) (r : Fin 16) (d : Fin 2048) : sqArr m c (ix2 r d) = coreSq m c (r.val / 8) d := rfl
theorem sumArr_apply (c : Dev nD) (r : Fin 16) (d : Fin 2048) : sumArr m c (ix2 r d) = coreSum m c (r.val / 8) d := rfl

/-- What the last point of a run writes back is its slab of the sum-of-squares array. -/
theorem flushed_sq (c : Dev nD) (t : Fin cfg0.N) (hf : (cfg0.win 1).flush t = true) :
    (dats m 0 c).flushed 1 t = ((cfg0.win 1).blk t).view.read (Elt Ideal) (sqArr m c) := by
  have h7 : t.val % 8 = 7 := (flush0_1 t).mp hf
  obtain ⟨i10, i11, -, -, -, -⟩ := idx_facts t
  show (cfg0.win 1).cut (grid0.coords t) ((dats m 0 c).after 1 t) = _
  rw [after0_1]
  have key : ∀ j : S8x2048.Idx, (outsAt0 m c t.val t.isLt).1 j = sqArr m c (((cfg0.win 1).blk t).view.emb j) := by
    intro j
    obtain ⟨r, d, rfl⟩ : ∃ (r : Fin 8) (d : Fin 2048), j = ix2 r d := ⟨j 0, j 1, eq_ix2 j⟩
    rw [sq_running m c t.val t.isLt r d, h7]
    show _ = coreSq m c (((((cfg0.win 1).blk t).view.emb (ix2 r d)) 0).val / 8) ((((cfg0.win 1).blk t).view.emb (ix2 r d)) 1)
    have e0 : ((((cfg0.win 1).blk t).view.emb (ix2 r d)) 0).val / 8 = t.val / 8 := by
      show (win0_1.index t (0 : Fin 2) * 8 + 1 * r.val) / 8 = t.val / 8
      rw [i10]; have := r.isLt; omega
    have e1 : (((cfg0.win 1).blk t).view.emb (ix2 r d)) 1 = d := Fin.ext (by
      show win0_1.index t (1 : Fin 2) * 2048 + 1 * d.val = d.val
      rw [i11]; omega)
    rw [e0, e1]
    rfl
  exact funext key

/-- What the last point of a run writes back is its slab of the column-sum array. -/
theorem flushed_sum (c : Dev nD) (t : Fin cfg0.N) (hf : (cfg0.win 2).flush t = true) :
    (dats m 0 c).flushed 2 t = ((cfg0.win 2).blk t).view.read (Elt Ideal) (sumArr m c) := by
  have h7 : t.val % 8 = 7 := (flush0_2 t).mp hf
  obtain ⟨-, -, i20, i21, -, -⟩ := idx_facts t
  show (cfg0.win 2).cut (grid0.coords t) ((dats m 0 c).after 2 t) = _
  rw [after0_2]
  have key : ∀ j : S8x2048.Idx, (outsAt0 m c t.val t.isLt).2 j = sumArr m c (((cfg0.win 2).blk t).view.emb j) := by
    intro j
    obtain ⟨r, d, rfl⟩ : ∃ (r : Fin 8) (d : Fin 2048), j = ix2 r d := ⟨j 0, j 1, eq_ix2 j⟩
    rw [sum_running m c t.val t.isLt r d, h7]
    show _ = coreSum m c (((((cfg0.win 2).blk t).view.emb (ix2 r d)) 0).val / 8) ((((cfg0.win 2).blk t).view.emb (ix2 r d)) 1)
    have e0 : ((((cfg0.win 2).blk t).view.emb (ix2 r d)) 0).val / 8 = t.val / 8 := by
      show (win0_2.index t (0 : Fin 2) * 8 + 1 * r.val) / 8 = t.val / 8
      rw [i20]; have := r.isLt; omega
    have e1 : (((cfg0.win 2).blk t).view.emb (ix2 r d)) 1 = d := Fin.ext (by
      show win0_2.index t (1 : Fin 2) * 2048 + 1 * d.val = d.val
      rw [i21]; omega)
    rw [e0, e1]
    rfl
  exact funext key

/-- An entry of a [16, 2048] array lies in point t's slab iff each coordinate is in the slab's range. -/
theorem mem_slab1 (t : Fin cfg0.N) (i : S16x2048.Idx) :
    i ∈ ((cfg0.win 1).blk t).view.set ↔ ∀ a : Fin 2, win0_1.index t a * S8x2048.size a ≤ (i a).val ∧ (i a).val < win0_1.index t a * S8x2048.size a + S8x2048.size a := by
  show i ∈ ((View.whole main_v0_0).slice (win0_1.rect t)).set ↔ _
  rw [View.set_slice_whole, Rect.mem_set_unit]
  exact Iff.rfl

theorem mem_slab2 (t : Fin cfg0.N) (i : S16x2048.Idx) :
    i ∈ ((cfg0.win 2).blk t).view.set ↔ ∀ a : Fin 2, win0_2.index t a * S8x2048.size a ≤ (i a).val ∧ (i a).val < win0_2.index t a * S8x2048.size a + S8x2048.size a := by
  show i ∈ ((View.whole main_v0_1).slice (win0_2.rect t)).set ↔ _
  rw [View.set_slice_whole, Rect.mem_set_unit]
  exact Iff.rfl

/-- Row r lies in the slab written by the last point of core r / 8's run. -/
theorem cover1 (i : S16x2048.Idx) :
    ∃ t : Fin cfg0.N, (cfg0.win 1).flush t = true ∧ i ∈ ((cfg0.win 1).blk t).view.set := by
  have hi0 : (i 0).val < 16 := (i 0).isLt
  have hi1 : (i 1).val < 2048 := (i 1).isLt
  have hN : cfg0.N = 16 := N_0
  have hlt : 8 * ((i 0).val / 8) + 7 < cfg0.N := by rw [hN]; omega
  obtain ⟨i10, i11, -, -, -, -⟩ := idx_facts ⟨8 * ((i 0).val / 8) + 7, hlt⟩
  refine ⟨⟨8 * ((i 0).val / 8) + 7, hlt⟩, (flush0_1 _).mpr (by show (8 * ((i 0).val / 8) + 7) % 8 = 7; omega), ?_⟩
  rw [mem_slab1]
  intro a
  match a with
  | ⟨0, _⟩ =>
    show win0_1.index ⟨8 * ((i 0).val / 8) + 7, hlt⟩ (0 : Fin 2) * 8 ≤ (i 0).val ∧ (i 0).val < win0_1.index ⟨8 * ((i 0).val / 8) + 7, hlt⟩ (0 : Fin 2) * 8 + 8
    rw [i10]; dsimp only; omega
  | ⟨1, _⟩ =>
    show win0_1.index ⟨8 * ((i 0).val / 8) + 7, hlt⟩ (1 : Fin 2) * 2048 ≤ (i 1).val ∧ (i 1).val < win0_1.index ⟨8 * ((i 0).val / 8) + 7, hlt⟩ (1 : Fin 2) * 2048 + 2048
    rw [i11]; omega

theorem cover2 (i : S16x2048.Idx) :
    ∃ t : Fin cfg0.N, (cfg0.win 2).flush t = true ∧ i ∈ ((cfg0.win 2).blk t).view.set := by
  have hi0 : (i 0).val < 16 := (i 0).isLt
  have hi1 : (i 1).val < 2048 := (i 1).isLt
  have hN : cfg0.N = 16 := N_0
  have hlt : 8 * ((i 0).val / 8) + 7 < cfg0.N := by rw [hN]; omega
  obtain ⟨-, -, i20, i21, -, -⟩ := idx_facts ⟨8 * ((i 0).val / 8) + 7, hlt⟩
  refine ⟨⟨8 * ((i 0).val / 8) + 7, hlt⟩, (flush0_2 _).mpr (by show (8 * ((i 0).val / 8) + 7) % 8 = 7; omega), ?_⟩
  rw [mem_slab2]
  intro a
  match a with
  | ⟨0, _⟩ =>
    show win0_2.index ⟨8 * ((i 0).val / 8) + 7, hlt⟩ (0 : Fin 2) * 8 ≤ (i 0).val ∧ (i 0).val < win0_2.index ⟨8 * ((i 0).val / 8) + 7, hlt⟩ (0 : Fin 2) * 8 + 8
    rw [i20]; dsimp only; omega
  | ⟨1, _⟩ =>
    show win0_2.index ⟨8 * ((i 0).val / 8) + 7, hlt⟩ (1 : Fin 2) * 2048 ≤ (i 1).val ∧ (i 1).val < win0_2.index ⟨8 * ((i 0).val / 8) + 7, hlt⟩ (1 : Fin 2) * 2048 + 2048
    rw [i21]; omega

/-- The sum-of-squares array after the run. -/
theorem final_sq (c : Dev nD) : (dats m 0 c).arrAt 1 cfg0.N = sqArr m c :=
  (dats m 0 c).arrAt_eq_of_cover 1 (sqArr m c) (flushed_sq m c) cover1

/-- The column-sum array after the run. -/
theorem final_sum (c : Dev nD) : (dats m 0 c).arrAt 2 cfg0.N = sumArr m c :=
  (dats m 0 c).arrAt_eq_of_cover 2 (sumArr m c) (flushed_sum m c) cover2

/-- Input block n is rows 1024·n … 1024·n + 1023 of the argument array. -/
theorem blkAt_apply (c : Dev nD) (n : ℕ) (hn : n < 16) (k : Fin 1024) (d : Fin 2048) :
    blkAt m c n (ix2 k d)
      = m ((c : Thread nD τ).loc main_arg0) (ix2 (⟨1024 * n + k.val, by have := k.isLt; omega⟩ : Fin 16384) d) := by
  have h : n < cfg0.N := by rw [show cfg0.N = 16 from N_0]; exact hn
  obtain ⟨-, -, -, -, i00, i01⟩ := idx_facts ⟨n, h⟩
  rw [blkAt, dif_pos h]
  unfold iblk
  rw [View.read_apply]
  show V m c main_arg0 _ = m ((c : Thread nD τ).loc main_arg0) _
  rw [V_main_arg0]
  refine congrArg _ ?_
  funext a
  apply Fin.ext
  match a with
  | ⟨0, _⟩ =>
    show win0_0.index ⟨n, h⟩ (0 : Fin 2) * 1024 + 1 * k.val = 1024 * n + k.val
    rw [i00]; dsimp only; omega
  | ⟨1, _⟩ =>
    show win0_0.index ⟨n, h⟩ (1 : Fin 2) * 2048 + 1 * d.val = d.val
    rw [i01]; omega

end Cert.KernelIdeal.Arrays

end
-- ==== Proof.Tail.lean ====
/-
  The last steps both programs share. From the total sum of squares a (a scalar) and the column
  sums b (a vector of 2048) both compute
      ((16384 · a − Σ_d b(d)²) / 2) / n_pairs
  by the same host operations on the same literal words; so it is one function of (a, b), and the
  two programs agree as soon as their a's and b's do.
-/
import Idealize.ShloMosaic.PureOps
import Idealize.ShloMosaic.PureOps.Ideal

noncomputable section

namespace Cert.PairLoss

open Idealize.ShloMosaic

/-- The shared closing steps, as one function of the two reduced values. -/
def lossOf (h1 : (⟨1, ![2048]⟩ : Shape).ReducesTo [0] ⟨0, ![]⟩) (h2 : 0 < (⟨0, ![]⟩ : Shape).numel)
    (a : FVec Ideal ⟨0, ![]⟩ .f32) (b : FVec Ideal ⟨1, ![2048]⟩ .f32) : FVec Ideal ⟨0, ![]⟩ .f32 :=
  Host.divf (F := Ideal)
    (Host.divf (F := Ideal)
      (subf (mulf (constant (F := Ideal) ⟨0, ![]⟩ .f32 0x46800000#32) a)
        (Host.reduceAdd (F := Ideal) (mulf b b) (constant (F := Ideal) ⟨0, ![]⟩ .f32 0x00000000#32) h1 h2))
      (constant (F := Ideal) ⟨0, ![]⟩ .f32 0x40000000#32))
    (constant (F := Ideal) ⟨0, ![]⟩ .f32 0x4CFFFC00#32)

end Cert.PairLoss

end
-- ==== Proof.KernelValue.lean ====
/-
  The kernel program's result. After the region the host sums the sum-of-squares array over all
  its entries, sums the column-sum array over its 16 rows, and applies the closing steps; the
  frame run states the result buffer as those host operations applied to the two arrays the
  region leaves, which are the core-total arrays.
-/
import proofs.«134652_j81681688035493_2_alg».proof.Proof.Arrays
import proofs.«134652_j81681688035493_2_alg».proof.Proof.Tail
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Arrays Cert.PairLoss

variable (m : (ℓ : Loc nD τ sig) → Buf (Elt Ideal) ℓ) (ρ : Dev nD → PrngReg)

/-- The host operations after the region, read off the arrays the region leaves. -/
theorem tail_value (c : Dev nD) (h1 : S2048.ReducesTo [0] S_) (h2 : 0 < S_.numel)
    (h3 : S16x2048.ReducesTo [0, 1] S_) (h4 : S16x2048.ReducesTo [0] S2048) :
    Pipeline.afterTail₀ cfgs (dats m) 0 (V0 m) [hostOps1] c main_v8
      = lossOf h1 h2
          (Host.reduceAdd (F := Ideal) (sqArr m c) (constant (F := Ideal) S_ .f32 0x00000000#32) h3 h2)
          (Host.reduceAdd (F := Ideal) (sumArr m c) (constant (F := Ideal) S_ .f32 0x00000000#32) h4 h2) := by
  unfold Pipeline.afterTail₀
  show StableHlo.after hostOps1 _ (Proc.devRef .tc main_v8) = _
  after_results
  have e1 : Pipeline.withArrays (cfgs 0).spec c (V0 m c) (fun w => (dats m 0 c).arrAt w (cfgs 0).N)
      (Proc.devRef .tc main_v0_0) = sqArr m c :=
    (Pipeline.withArrays_arr spec0 launch0.win.arr_inj c _ _ 1).trans (final_sq m c)
  have e2 : Pipeline.withArrays (cfgs 0).spec c (V0 m c) (fun w => (dats m 0 c).arrAt w (cfgs 0).N)
      (Proc.devRef .tc main_v0_1) = sumArr m c :=
    (Pipeline.withArrays_arr spec0 launch0.win.arr_inj c _ _ 2).trans (final_sum m c)
  rw [e1, e2]
  rfl

/-- The kernel program's run, read: the result buffer at the closing steps of the two reduced
    core-total arrays, the argument unchanged. -/
theorem run (h1 : S2048.ReducesTo [0] S_) (h2 : 0 < S_.numel)
    (h3 : S16x2048.ReducesTo [0, 1] S_) (h4 : S16x2048.ReducesTo [0] S2048) :
    θ_run defs (onTc (τ := τ) (main (F := Ideal))) ⟨m, fun _ => 0, ρ⟩ fun r => ∀ c : Dev nD,
      r.2.mem ((c.tc : Thread nD τ).loc main_v8)
        = lossOf h1 h2
          (Host.reduceAdd (F := Ideal) (sqArr m c) (constant (F := Ideal) S_ .f32 0x00000000#32) h3 h2)
          (Host.reduceAdd (F := Ideal) (sumArr m c) (constant (F := Ideal) S_ .f32 0x00000000#32) h4 h2)
      ∧ r.2.mem ((c.tc : Thread nD τ).loc main_arg0) = m ((c.tc : Thread nD τ).loc main_arg0) :=
  (θ_run defs _ _).mono (fun r h c =>
    ⟨((h c).2 main_v8 (Pipeline.mem_restRefs_of main_v8 rfl (by decide))).trans (tail_value m c h1 h2 h3 h4),
      ((h c).1 0).trans (((dats m 0 c).arrAt_in 0 rfl _).trans ((A_eq m c 0).trans (V_main_arg0 m c)))⟩)
    (run_main m ρ)

end Cert.KernelIdeal.Result

end
-- ==== Proof.SumLaws.lean ====
/-
  Laws of finite sums of real numbers, read inside the extended reals, by which the kernel's
  blockwise partial sums regroup into the reference's whole sums.

  The kernel splits the 16384 rows into 16 blocks of 1024; the blocks of one core (8 of them) are
  summed, each scaled by 1/8, and the result is written to all 8 rows of that core's slab; the
  host then sums all 16 slab rows. So each core's total is counted 8 times at weight 1/8:
      Σ_{r<16} Σ_{s<8} (Σ_{k<1024} g(1024·(8·(r/8)+s)+k)) / 8 = Σ_{a<16384} g a.
  Over the reals this is distributivity; it is transported to the extended reals through the
  coercion, which is additive and multiplicative on real arguments.
-/
import Idealize.ShloMosaic.PureOps.Ideal
import Idealize.ShloMosaic.PureOps.Ideal.Laws
import Idealize.ShloMosaic.Lib.ValueIdx

noncomputable section

namespace Cert.PairLoss

open Finset

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The first a·b naturals are a consecutive runs of b. -/
theorem sum_range_mul (f : ℕ → ℝ) (a b : ℕ) :
    ∑ i ∈ range (a * b), f i = ∑ p ∈ range a, ∑ q ∈ range b, f (b * p + q) := by
  induction a with
  | zero => simp
  | succ a ih => rw [Nat.succ_mul, Finset.sum_range_add, ih, Finset.sum_range_succ, Nat.mul_comm a b]

/-- Sixteen slab rows, each holding its core's eight block totals at weight 1/8, sum to the
    sixteen block totals: each core's eight rows count its total eight times at weight 1/8. -/
theorem regroup (T : ℕ → ℝ) :
    ∑ r ∈ range 16, ∑ s ∈ range 8, T (8 * (r / 8) + s) * 0.125 = ∑ t ∈ range 16, T t := by
  simp only [Finset.sum_range_succ, Finset.sum_range_zero]
  norm_num
  ring

/-- The same with each block total written out as a sum over the block's 1024 rows. -/
theorem blocks_total (g : ℕ → ℝ) :
    ∑ r ∈ range 16, ∑ s ∈ range 8, (∑ k ∈ range 1024, g (1024 * (8 * (r / 8) + s) + k)) * 0.125
      = ∑ a ∈ range 16384, g a := by
  refine (regroup (fun n => ∑ k ∈ range 1024, g (1024 * n + k))).trans ?_
  rw [show (16384 : ℕ) = 16 * 1024 from rfl, sum_range_mul]

/-- The extended-real form the two programs meet in: with z the zero and e the eighth of the
    extended reals, the host's sum over the 16 slab rows of the kernel's accumulated column
    entries is the whole column's sum. -/
theorem column_total (z e : EReal) (hz : z = 0) (he : e = ((0.125 : ℝ) : EReal)) (g : ℕ → ℝ) :
    ∑ r : Fin 16, (z + ∑ s ∈ range 8, (∑ k : Fin 1024, ((g (1024 * (8 * (r.val / 8) + s) + k.val) : ℝ) : EReal)) * e)
      = ((∑ a ∈ range 16384, g a : ℝ) : EReal) := by
  subst hz he
  rw [← blocks_total g, coe_sum, ← Fin.sum_univ_eq_sum_range
    (fun r => ((∑ s ∈ range 8, (∑ k ∈ range 1024, g (1024 * (8 * (r / 8) + s) + k)) * 0.125 : ℝ) : EReal)) 16]
  refine Finset.sum_congr rfl fun r _ => ?_
  rw [zero_add, coe_sum]
  refine Finset.sum_congr rfl fun s _ => ?_
  rw [EReal.coe_mul, coe_sum, ← Fin.sum_univ_eq_sum_range (fun k => ((g (1024 * (8 * (r.val / 8) + s) + k) : ℝ) : EReal)) 1024]

/-- Entry (a, d) of a real [16384, 2048] array, for every natural a (zero past the array). -/
def rowAt (x : (⟨2, ![16384, 2048]⟩ : Idealize.ShloMosaic.Shape).Idx → ℝ) (a : ℕ) (d : Fin 2048) : ℝ :=
  if h : a < 16384 then x (Idealize.ShloMosaic.ValueIdx.ix2 (⟨a, h⟩ : Fin 16384) d) else 0

theorem rowAt_of_lt (x : (⟨2, ![16384, 2048]⟩ : Idealize.ShloMosaic.Shape).Idx → ℝ) (a : Fin 16384) (d : Fin 2048) :
    rowAt x a.val d = x (Idealize.ShloMosaic.ValueIdx.ix2 a d) :=
  dif_pos a.isLt

open Idealize.ShloMosaic in
/-- A host sum of an array over every axis into a scalar is the initial zero plus the sum of all entries. -/
theorem total_apply {s : Shape} {axes : List (Fin s.rank)} (h : s.ReducesTo axes ⟨0, ![]⟩) (h2 : 0 < (⟨0, ![]⟩ : Shape).numel)
    (v : FVec Ideal s .f32) (i : (⟨0, ![]⟩ : Shape).Idx) :
    Host.reduceAdd (F := Ideal) v (constant (F := Ideal) ⟨0, ![]⟩ .f32 0x00000000#32) h h2 i
      = Ideal.ofBits .f32 0x00000000#32 + ∑ j : s.Idx, v j := by
  simp only [Host.reduceAdd, Ideal.hostReduceAdd_def]
  exact Ideal.hostReduceAdd_total h (fun b => b.elim0) v _ i

end Cert.PairLoss

end
-- ==== Proof.Bridge.lean ====
/-
  The two reduced values of the kernel program as plain sums over the argument array, when the
  argument's entries are real numbers x(a, d).

  Input block n is rows 1024·n … of the argument, so point n's addend in column d is
  (Σ_k x(1024·n + k, d)²) / 8; a core's total is the sum of its eight addends; the host adds the
  sixteen slab rows of a column, each holding its core's total. By the regrouping law this is
  Σ_a x(a, d)² over all 16384 rows — and the same for the column sums with x in place of x².
-/
import proofs.«134652_j81681688035493_2_alg».proof.Proof.Arrays
import proofs.«134652_j81681688035493_2_alg».proof.Proof.SumLaws
import Idealize.ShloMosaic.PureOps.Ideal.Laws

noncomputable section

open Idealize.ShloMosaic Idealize.ShloMosaic.TcCoe Idealize.SL.Sem Idealize.ShloMosaic.ValueIdx

namespace Cert.KernelIdeal.Bridge

open Cert.KernelIdeal Cert.KernelIdeal.Gen Cert.KernelIdeal.Payload Cert.KernelIdeal.Running Cert.KernelIdeal.Arrays
open Cert.PairLoss Finset

/-- The kernel's scale word denotes the real 1/8. -/
theorem eighth_eq : eighth = ((0.125 : ℝ) : EReal) := by
  unfold eighth
  simp [Ideal.ofBits, Ideal.ieee, -EReal.coe_mul]
  norm_num

/-- The reset word denotes 0. -/
theorem zero32_eq : zero32 = 0 := Ideal.ofBits_zero_f32

/-- A host sum over the 16 rows of a [16, 2048] array, one column at a time. -/
theorem rows16_apply (h : S16x2048.ReducesTo [0] S2048) (h2 : 0 < S_.numel) (v : FVec Ideal S16x2048 .f32) (d : Fin 2048) :
    Host.reduceAdd (F := Ideal) v (constant (F := Ideal) S_ .f32 0x00000000#32) h h2 (ix1 d)
      = zero32 + ∑ r : Fin 16, v (ix2 r d) := by
  simp only [Host.reduceAdd, Ideal.hostReduceAdd_def]
  rw [Ideal.hostReduceAdd_single h (by decide)]
  refine congrArg (_ + ·) (Finset.sum_congr rfl fun k _ => ?_)
  exact congrArg v (funext fun a => Fin.ext (by match a with | ⟨0, _⟩ => rfl | ⟨1, _⟩ => rfl))

variable (m : (ℓ : Loc nD τ sig) → Buf (Elt Ideal) ℓ) (c : Dev nD) (x : S16384x2048.Idx → ℝ)
  (hx : ∀ i, m ((c : Thread nD τ).loc main_arg0) i = ((x i : ℝ) : EReal))

include hx

/-- An entry of input block n is a real entry of the argument. -/
theorem blk_entry (n : ℕ) (hn : n < 16) (k : Fin 1024) (d : Fin 2048) :
    blkAt m c n (ix2 k d) = ((rowAt x (1024 * n + k.val) d : ℝ) : EReal) := by
  have hk := k.isLt
  rw [blkAt_apply m c n hn k d, hx, rowAt, dif_pos (by omega)]

theorem sqAdd_eq (n : ℕ) (hn : n < 16) (d : Fin 2048) :
    sqAdd (blkAt m c n) d
      = (∑ k : Fin 1024, ((rowAt x (1024 * n + k.val) d * rowAt x (1024 * n + k.val) d : ℝ) : EReal)) * eighth := by
  unfold sqAdd
  refine congrArg (· * eighth) (Finset.sum_congr rfl fun k _ => ?_)
  rw [blk_entry m c x hx n hn k d, EReal.coe_mul]

theorem sumAdd_eq (n : ℕ) (hn : n < 16) (d : Fin 2048) :
    sumAdd (blkAt m c n) d = (∑ k : Fin 1024, ((rowAt x (1024 * n + k.val) d : ℝ) : EReal)) * eighth := by
  unfold sumAdd
  refine congrArg (· * eighth) (Finset.sum_congr rfl fun k _ => ?_)
  rw [blk_entry m c x hx n hn k d]

/-- Column d of the sum-of-squares array, summed over its 16 rows, is Σ_a x(a, d)². -/
theorem sq_column (d : Fin 2048) :
    ∑ r : Fin 16, coreSq m c (r.val / 8) d = ((∑ a ∈ range 16384, rowAt x a d * rowAt x a d : ℝ) : EReal) := by
  rw [← column_total zero32 eighth zero32_eq eighth_eq (fun a => rowAt x a d * rowAt x a d)]
  refine Finset.sum_congr rfl fun r _ => ?_
  unfold coreSq
  refine congrArg (zero32 + ·) (Finset.sum_congr rfl fun s hs => ?_)
  have hs8 : s < 8 := Finset.mem_range.mp hs
  have hr : r.val < 16 := r.isLt
  exact sqAdd_eq m c x hx (8 * (r.val / 8) + s) (by omega) d

/-- Column d of the column-sum array, summed over its 16 rows, is Σ_a x(a, d). -/
theorem sum_column (d : Fin 2048) :
    ∑ r : Fin 16, coreSum m c (r.val / 8) d = ((∑ a ∈ range 16384, rowAt x a d : ℝ) : EReal) := by
  rw [← column_total zero32 eighth zero32_eq eighth_eq (fun a => rowAt x a d)]
  refine Finset.sum_congr rfl fun r _ => ?_
  unfold coreSum
  refine congrArg (zero32 + ·) (Finset.sum_congr rfl fun s hs => ?_)
  have hs8 : s < 8 := Finset.mem_range.mp hs
  have hr : r.val < 16 := r.isLt
  exact sumAdd_eq m c x hx (8 * (r.val / 8) + s) (by omega) d

/-- The kernel program's total sum of squares. -/
theorem sq_total (h3 : S16x2048.ReducesTo [0, 1] S_) (h2 : 0 < S_.numel) (i : S_.Idx) :
    Host.reduceAdd (F := Ideal) (sqArr m c) (constant (F := Ideal) S_ .f32 0x00000000#32) h3 h2 i
      = zero32 + ∑ d : Fin 2048, ((∑ a ∈ range 16384, rowAt x a d * rowAt x a d : ℝ) : EReal) := by
  rw [total_apply h3 h2 (sqArr m c) i, sum_idx2, Finset.sum_comm]
  refine congrArg (zero32 + ·) (Finset.sum_congr rfl fun d _ => ?_)
  exact sq_column m c x hx d

/-- The kernel program's column sums. -/
theorem sum_cols (h4 : S16x2048.ReducesTo [0] S2048) (h2 : 0 < S_.numel) (d : Fin 2048) :
    Host.reduceAdd (F := Ideal) (sumArr m c) (constant (F := Ideal) S_ .f32 0x00000000#32) h4 h2 (ix1 d)
      = zero32 + ((∑ a ∈ range 16384, rowAt x a d : ℝ) : EReal) := by
  rw [rows16_apply h4 h2 (sumArr m c) d]
  exact congrArg (zero32 + ·) (sum_column m c x hx d)

end Cert.KernelIdeal.Bridge

end
-- ==== Proof.RefValue.lean ====
/-
  The two reduced values of the reference program as plain sums over the argument array, when
  the argument's entries are real numbers x(a, d): the sum of all squares, column by column, and
  the 2048 column sums. Then the reference's whole result is the shared closing steps of these.
-/
import proofs.«134652_j81681688035493_2_alg».proof.Proof.Gen.ReferenceIdeal.Run
import proofs.«134652_j81681688035493_2_alg».proof.Proof.SumLaws
import proofs.«134652_j81681688035493_2_alg».proof.Proof.Tail
import Idealize.ShloMosaic.PureOps.Ideal.Laws
import Idealize.ShloMosaic.Lib.ValueIdx

noncomputable section

open Idealize.ShloMosaic Idealize.ShloMosaic.ValueIdx

namespace Cert.ReferenceIdeal.RefValue

open Cert.ReferenceIdeal Cert.ReferenceIdeal.Gen Cert.PairLoss Finset

/-- The reference's result term is the shared closing steps of its two reduced values. -/
theorem result_eq (X : FVec Ideal S16384x2048 .f32) (h1 : S2048.ReducesTo [0] S_) (h2 : 0 < S_.numel)
    (h3 : S16384x2048.ReducesTo [0, 1] S_) (h4 : S16384x2048.ReducesTo [0] S2048) :
    Host.divf (F := Ideal) (Host.divf (F := Ideal) (subf (mulf (constant (F := Ideal) S_ .f32 0x46800000#32)
      (Host.reduceAdd (F := Ideal) (mulf X X) (constant (F := Ideal) S_ .f32 0x00000000#32) h3 h2))
      (Host.reduceAdd (F := Ideal) (mulf (Host.reduceAdd (F := Ideal) X (constant (F := Ideal) S_ .f32 0x00000000#32) h4 h2)
        (Host.reduceAdd (F := Ideal) X (constant (F := Ideal) S_ .f32 0x00000000#32) h4 h2))
        (constant (F := Ideal) S_ .f32 0x00000000#32) h1 h2)) (constant (F := Ideal) S_ .f32 0x40000000#32))
      (constant (F := Ideal) S_ .f32 0x4CFFFC00#32)
    = lossOf h1 h2 (Host.reduceAdd (F := Ideal) (mulf X X) (constant (F := Ideal) S_ .f32 0x00000000#32) h3 h2)
        (Host.reduceAdd (F := Ideal) X (constant (F := Ideal) S_ .f32 0x00000000#32) h4 h2) := rfl

/-- A host sum over the 16384 rows of the argument, one column at a time. -/
theorem rows_apply (h : S16384x2048.ReducesTo [0] S2048) (h2 : 0 < S_.numel) (v : FVec Ideal S16384x2048 .f32) (d : Fin 2048) :
    Host.reduceAdd (F := Ideal) v (constant (F := Ideal) S_ .f32 0x00000000#32) h h2 (ix1 d)
      = Ideal.ofBits .f32 0x00000000#32 + ∑ a : Fin 16384, v (ix2 a d) := by
  simp only [Host.reduceAdd, Ideal.hostReduceAdd_def]
  rw [Ideal.hostReduceAdd_single h (by decide)]
  refine congrArg (_ + ·) (Finset.sum_congr rfl fun k _ => ?_)
  exact congrArg v (funext fun a => Fin.ext (by match a with | ⟨0, _⟩ => rfl | ⟨1, _⟩ => rfl))

variable (X : FVec Ideal S16384x2048 .f32) (x : S16384x2048.Idx → ℝ) (hx : ∀ i, X i = ((x i : ℝ) : EReal))

include hx

/-- The reference program's total sum of squares, column by column. -/
theorem sq_total (h3 : S16384x2048.ReducesTo [0, 1] S_) (h2 : 0 < S_.numel) (i : S_.Idx) :
    Host.reduceAdd (F := Ideal) (mulf X X) (constant (F := Ideal) S_ .f32 0x00000000#32) h3 h2 i
      = Ideal.ofBits .f32 0x00000000#32 + ∑ d : Fin 2048, ((∑ a ∈ range 16384, rowAt x a d * rowAt x a d : ℝ) : EReal) := by
  rw [total_apply h3 h2 (mulf X X) i, sum_idx2, Finset.sum_comm]
  refine congrArg (_ + ·) (Finset.sum_congr rfl fun d _ => ?_)
  rw [coe_sum, ← Fin.sum_univ_eq_sum_range (fun a => ((rowAt x a d * rowAt x a d : ℝ) : EReal)) 16384]
  refine Finset.sum_congr rfl fun a _ => ?_
  rw [mulf_apply, hx, rowAt_of_lt, EReal.coe_mul]

/-- The reference program's column sums. -/
theorem sum_cols (h4 : S16384x2048.ReducesTo [0] S2048) (h2 : 0 < S_.numel) (d : Fin 2048) :
    Host.reduceAdd (F := Ideal) X (constant (F := Ideal) S_ .f32 0x00000000#32) h4 h2 (ix1 d)
      = Ideal.ofBits .f32 0x00000000#32 + ((∑ a ∈ range 16384, rowAt x a d : ℝ) : EReal) := by
  rw [rows_apply h4 h2 X d]
  refine congrArg (_ + ·) ?_
  rw [coe_sum, ← Fin.sum_univ_eq_sum_range (fun a => ((rowAt x a d : ℝ) : EReal)) 16384]
  refine Finset.sum_congr rfl fun a _ => ?_
  rw [hx, rowAt_of_lt]

end Cert.ReferenceIdeal.RefValue

end
-- ==== Proof.Finite.lean ====
/-
  What the precondition says of the argument array: every entry x satisfies |x| < +∞, hence is
  neither infinity; over the extended reals that makes it a real number. The sums and products
  that follow are then sums and products of reals, where distributivity holds.
-/
import proofs.«134652_j81681688035493_2_alg».proof.Pre_finite_inputs
import Idealize.ShloMosaic.PureOps.Ideal
import Idealize.ShloMosaic.Lib.ReduceAll
import Idealize.ShloMosaic.Lib.ValueIdx

noncomputable section

namespace Cert.PairLoss

open Idealize.ShloMosaic

/-- The word the precondition compares against denotes +∞. -/
theorem top_f32 : Ideal.ofBits .f32 0x7F800000#32 = ⊤ := by simp [Ideal.ofBits, Ideal.ieee]

/-- A rank-0 array has one index. -/
instance : Subsingleton Cert.Pre_finite_inputs.S_.Idx := ⟨fun a b => funext fun d => d.elim0⟩

/-- Under the precondition every entry of the argument array is a real number. -/
theorem real_of_pre [Cert.Pre_finite_inputs.Facts] (X : FVec Ideal Cert.Pre_finite_inputs.S16384x2048 .f32)
    (h : Cert.Pre_finite_inputs.fn (F := Ideal) X = fun _ => 1#1) (i : Cert.Pre_finite_inputs.S16384x2048.Idx) :
    ∃ x : ℝ, X i = (x : EReal) := by
  have h0 := congrFun h ValueIdx.ix0
  dsimp only [Cert.Pre_finite_inputs.fn] at h0
  have hi := Host.reduce_andi_all _ _ _ _ _ h0 i
  have hcmp : Ideal.cmp .olt (max (X i) (-(X i))) (Ideal.ofBits .f32 0x7F800000#32) = 1#1 := hi
  rw [top_f32] at hcmp
  have hlt : max (X i) (-(X i)) < ⊤ := by
    by_contra hc
    unfold Ideal.cmp at hcmp
    dsimp only at hcmp
    rw [decide_eq_false hc] at hcmp
    exact absurd hcmp (by decide)
  have hne_top : X i ≠ ⊤ := fun e => by rw [e] at hlt; simp at hlt
  have hne_bot : X i ≠ ⊥ := fun e => by rw [e] at hlt; simp at hlt
  exact ⟨(X i).toReal, (EReal.coe_toReal hne_top hne_bot).symm⟩

end Cert.PairLoss

end
-- ==== Proof.lean ====
/-
  Mean squared pairwise distance of 16384 embedding vectors of length 2048, through the closed
  form  N · Σ_i ‖x_i‖² − ‖Σ_i x_i‖²  divided by 2 and by the number of pairs.

  Both programs apply the same closing steps to two reduced values: the sum a of all squared
  entries, and the vector b of the 2048 column sums. The reference takes them with two whole-array
  sums. The kernel splits the rows into 16 blocks of 1024, two cores taking 8 blocks each; a core
  accumulates, into every row of its own 8-row output slab, one eighth of each block's column sums
  (of squares, and of entries); the host then sums all 16 slab rows. Each core's total is thus
  counted 8 times at weight 1/8, and the blocks partition the rows, so the kernel's a and b are the
  reference's. That regrouping is distributivity, which over the extended reals needs the entries
  to be real numbers: the precondition (every entry finite) gives exactly that.

  The frames of the two kernel programs are the generated frame runs; the reference's frame is its
  generated run with the result dropped; the idealization rewrote nothing.
-/
import proofs.«134652_j81681688035493_2_alg».proof.Defs
import proofs.«134652_j81681688035493_2_alg».proof.Proof.Gen.Kernel
import proofs.«134652_j81681688035493_2_alg».proof.Proof.Gen.Kernel.Frame
import proofs.«134652_j81681688035493_2_alg».proof.Proof.Gen.KernelIdeal
import proofs.«134652_j81681688035493_2_alg».proof.Proof.Gen.KernelIdeal.Frame
import proofs.«134652_j81681688035493_2_alg».proof.Proof.Gen.ReferenceIdeal
import proofs.«134652_j81681688035493_2_alg».proof.Proof.Gen.ReferenceIdeal.Run
import proofs.«134652_j81681688035493_2_alg».proof.Proof.Gen.Pre_finite_inputs
import proofs.«134652_j81681688035493_2_alg».proof.Proof.KernelValue
import proofs.«134652_j81681688035493_2_alg».proof.Proof.Bridge
import proofs.«134652_j81681688035493_2_alg».proof.Proof.RefValue
import proofs.«134652_j81681688035493_2_alg».proof.Proof.Finite

noncomputable section

namespace Cert.Proof

open Idealize.ShloMosaic Idealize.ShloMosaic.TcCoe Idealize.SL.Sem Idealize.ShloMosaic.ValueIdx
open Cert.PairLoss

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From arguments that agree and are finite, both programs end at the closing steps of the same
    two reduced values. -/
theorem algebraic : Cert.algebraic_KernelIdeal_ReferenceIdeal := by
  intro m ρ m' ρ' hpre hagree
  have k1 : Cert.KernelIdeal.S2048.ReducesTo [0] Cert.KernelIdeal.S_ := Cert.KernelIdeal.Facts₀.reducesTo_S2048_S_d0
  have k2 : 0 < Cert.KernelIdeal.S_.numel := Cert.KernelIdeal.Facts₀.h_S_
  have k3 : Cert.KernelIdeal.S16x2048.ReducesTo [0, 1] Cert.KernelIdeal.S_ := Cert.KernelIdeal.Facts₀.reducesTo_S16x2048_S_d0_1
  have k4 : Cert.KernelIdeal.S16x2048.ReducesTo [0] Cert.KernelIdeal.S2048 := Cert.KernelIdeal.Facts₀.reducesTo_S16x2048_S2048_d0
  refine ⟨fun c => lossOf k1 k2
      (Host.reduceAdd (F := Ideal) (Cert.KernelIdeal.Arrays.sqArr m c) (constant (F := Ideal) Cert.KernelIdeal.S_ .f32 0x00000000#32) k3 k2)
      (Host.reduceAdd (F := Ideal) (Cert.KernelIdeal.Arrays.sumArr m c) (constant (F := Ideal) Cert.KernelIdeal.S_ .f32 0x00000000#32) k4 k2),
    Cert.KernelIdeal.Result.run m ρ k1 k2 k3 k4, ?_⟩
  refine (θ_run Cert.ReferenceIdeal.defs _ _).mono (fun _ h c => ⟨(h c).1.trans ?_, (h c).2⟩)
    (Cert.ReferenceIdeal.Value.run (F := Ideal) m' ρ')
  rw [hagree c]
  choose x hx using fun i => real_of_pre (m ((c.tc : Thread Cert.KernelIdeal.nD Cert.KernelIdeal.τ).loc Cert.KernelIdeal.main_arg0)) (hpre c) i
  refine (Cert.ReferenceIdeal.RefValue.result_eq _ _ _ _ _).trans ?_
  show lossOf _ _ _ _ = lossOf k1 k2 _ _
  have ha : Host.reduceAdd (F := Ideal)
        (mulf (m ((c.tc : Thread Cert.KernelIdeal.nD Cert.KernelIdeal.τ).loc Cert.KernelIdeal.main_arg0))
          (m ((c.tc : Thread Cert.KernelIdeal.nD Cert.KernelIdeal.τ).loc Cert.KernelIdeal.main_arg0)))
        (constant (F := Ideal) Cert.ReferenceIdeal.S_ .f32 0x00000000#32)
        Cert.ReferenceIdeal.Facts₀.reducesTo_S16384x2048_S_d0_1 Cert.ReferenceIdeal.Facts₀.h_S_
      = Host.reduceAdd (F := Ideal) (Cert.KernelIdeal.Arrays.sqArr m c) (constant (F := Ideal) Cert.KernelIdeal.S_ .f32 0x00000000#32) k3 k2 :=
    funext fun i => (Cert.ReferenceIdeal.RefValue.sq_total _ x hx _ _ i).trans
      (Cert.KernelIdeal.Bridge.sq_total m c x hx k3 k2 i).symm
  have hb : Host.reduceAdd (F := Ideal)
        (m ((c.tc : Thread Cert.KernelIdeal.nD Cert.KernelIdeal.τ).loc Cert.KernelIdeal.main_arg0))
        (constant (F := Ideal) Cert.ReferenceIdeal.S_ .f32 0x00000000#32)
        Cert.ReferenceIdeal.Facts₀.reducesTo_S16384x2048_S2048_d0 Cert.ReferenceIdeal.Facts₀.h_S_
      = Host.reduceAdd (F := Ideal) (Cert.KernelIdeal.Arrays.sumArr m c) (constant (F := Ideal) Cert.KernelIdeal.S_ .f32 0x00000000#32) k4 k2 :=
    funext fun j => by
      obtain ⟨d, rfl⟩ : ∃ d : Fin 2048, j = ix1 d := ⟨j 0, eq_ix1 j⟩
      exact (Cert.ReferenceIdeal.RefValue.sum_cols _ x hx _ _ d).trans (Cert.KernelIdeal.Bridge.sum_cols m c x hx k4 k2 d).symm
  rw [ha, hb]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
